-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2048x256 : Shape := ⟨2, ![2048, 256]⟩
abbrev S2048x1024 : Shape := ⟨2, ![2048, 1024]⟩
abbrev S1024x256 : Shape := ⟨2, ![1024, 256]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S8192x256, .f32⟩
  | .local _ .vmem, ⟨3, _⟩ => ⟨S2048x1024, .f32⟩
  | .local _ .vmem, ⟨4, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v1 : BitVec 32 := Scalar.muli arg1 c1024_i32
  v1
def k0_off1 (i : grid0.Coords) : Fin 2 → Nat :=
  let arg1 : BitVec 32 := BitVec.ofNat 32 (i 1).val
  let c1024_i32 : BitVec 32 := 1024#32
  let v1 : BitVec 32 := Scalar.muli arg1 c1024_i32
  let v2 : BitVec 32 := v1
  let v3 : Index := Scalar.indexCast v2
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  h_S1024x256 : 0 < S1024x256.numel
  reduces_S2048x256_S2048 : S2048x256.Reduces [1] S2048
  shapeCasts_S2048_S2048x1 : S2048.ShapeCasts S2048x1
  reduces_S1024x256_S1024 : S1024x256.Reduces [1] S1024
  shapeCasts_S1024_S1x1024 : S1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.RbfConsts.lean ====
/-
  The float words the two programs spell, as the extended reals they denote: the factor 2 of the cross term
  (both programs), the kernel's factor -1/2 and the reference's divisor 2 of the exponent, and the zero that
  starts every sum and clamps the squared distance from below.
-/
import Idealize.ShloMosaic.PureOps.Ideal

noncomputable section

namespace Cert.Rbf.Consts

open Idealize.ShloMosaic

/-- The word of `0.0` denotes `0`. -/
theorem ofBits_zero : Ideal.ofBits .f32 0x00000000#32 = 0 := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-0.5` denotes the real `-1/2`. -/
theorem ofBits_neg_half : Ideal.ofBits .f32 0xBF000000#32 = ((-(1 / 2) : ℝ) : EReal) := by
  simp [Ideal.ofBits, Ideal.ieee, -EReal.coe_mul]; norm_num

end Cert.Rbf.Consts

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.RbfSpec.lean ====
/-
  What both programs compute, as one function of the two argument arrays `x` and `p` (8192 rows of 256 numbers each):
  entry `(b, q)` of the 8192 × 8192 result is

      exp ( -1/2 · sqrt ( max ( |x_b|² + |p_q|² - 2 · ⟨x_b, p_q⟩ , 0 ) ) ),

  the Gaussian-type weight of the Euclidean distance between row `b` of `x` and row `q` of `p`, the squared distance
  expanded into two squared norms and an inner product and clamped at zero before the root.

  The kernel multiplies the root by the number `-1/2`; the reference negates the root and divides by `2`, and starts
  each of its two sums of squares from the number `0`. On the extended reals these are the same number
  (`reference_form`): `0 + s = s`, and halving a negation is multiplying by minus one half. No finiteness is used: the
  two sides differ by laws that hold at the infinities too.
-/
import Idealize.ShloMosaic.PureOps.Ideal
import Idealize.ShloMosaic.PureOps.Ideal.Laws
import Idealize.ShloMosaic.Lib.ValueIdx
import proofs.«173551_j16690242912928_2_alg».proof.Proof.RbfConsts
import proofs.«173551_j16690242912928_2_alg».proof.Proof.LibGram

noncomputable section

namespace Cert.Rbf

open Idealize.ShloMosaic Idealize.ShloMosaic.ValueIdx

/-- An argument array: 8192 rows of 256 extended reals. -/
abbrev Rows : Type := (⟨2, ![8192, 256]⟩ : Shape).Idx → EReal

/-- The squared norm of row `b`. -/
def sqNorm (x : Rows) (b : Fin 8192) : EReal := ∑ k : Fin 256, x (ix2 b k) * x (ix2 b k)

/-- The inner product of row `b` of `x` with row `q` of `p`. -/
def inner (x p : Rows) (b q : Fin 8192) : EReal := ∑ k : Fin 256, x (ix2 b k) * p (ix2 q k)

/-- The weight, from the two squared norms and the inner product, with the programs' own float words for `2`, `0`
    and `-1/2`. -/
def weight (sx sp cr : EReal) : EReal :=
  Ideal.exp (Ideal.sqrt (max (sx + sp - Ideal.ofBits .f32 0x40000000#32 * cr) (Ideal.ofBits .f32 0x00000000#32))
    * Ideal.ofBits .f32 0xBF000000#32)

/-- The result array as one function of the argument arrays. -/
def rbf (x p : Rows) : (⟨2, ![8192, 8192]⟩ : Shape).Idx → EReal :=
  fun i => weight (sqNorm x (i 0)) (sqNorm p (i 1)) (inner x p (i 0) (i 1))

/-- The reference's arrangement — each sum of squares started from `0`, the root negated and divided by `2` — is the
    same number. -/
theorem reference_form (sx sp cr : EReal) :
    Ideal.exp (Ideal.div (-(Ideal.sqrt (max ((Ideal.ofBits .f32 0x00000000#32 + sx) + (Ideal.ofBits .f32 0x00000000#32 + sp)
        - Ideal.ofBits .f32 0x40000000#32 * cr) (Ideal.ofBits .f32 0x00000000#32)))) (Ideal.ofBits .f32 0x40000000#32))
      = weight sx sp cr := by
  unfold weight
  rw [Consts.ofBits_zero, zero_add, zero_add, Consts.ofBits_neg_half, ← Cert.Lib.Gram.div_neg_two, Consts.ofBits_two]

end Cert.Rbf

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.RbfPayload.lean ====
/-
  One block of the kernel's result, read at an entry.

  At a grid point the body holds a block `X` of 2048 rows of `x` and a block `Q` of 1024 rows of `p`, and stores the
  2048 × 1024 block whose entry `(r, q)` is the weight of: the squared norm of row `r` of `X` (a lane sum, kept as a
  column and broadcast along the row), the squared norm of row `q` of `Q` (a lane sum, laid as a row and broadcast down
  the rows), and the inner product of the two rows (the matrix product of `X` with `Q`, both contracted over their
  256 columns, accumulated into zero).
-/
import proofs.«173551_j16690242912928_2_alg».proof.Proof.Gen.KernelIdeal.Skeleton
import proofs.«173551_j16690242912928_2_alg».proof.Proof.RbfSpec
import proofs.«173551_j16690242912928_2_alg».proof.Proof.LibRows
import proofs.«173551_j16690242912928_2_alg».proof.Proof.LibGram
import Idealize.ShloMosaic.Lib.ValueLayout

noncomputable section

namespace Cert.Rbf.Kernel

open Cert.KernelIdeal Cert.KernelIdeal.Gen Idealize.ShloMosaic Idealize.ShloMosaic.ValueIdx

/-- The lane sums of a 2048 × 256 block, as a column broadcast over 1024 columns: entry `(r, q)` is the sum of row `r`. -/
theorem rowSums_apply (v : FVec Ideal S2048x256 .f32) (r : Fin 2048) (q : Fin 1024) :
    broadcastTo S2048x1024 (shapeCast S2048x1 (multiReduction .add [1] S2048 v 0x00000000#32 reduces_S2048x256_S2048 (.inl rfl) rfl)
      shapeCasts_S2048_S2048x1) broadcasts_S2048x1_S2048x1024 (ix2 r q) = ∑ k : Fin 256, v (ix2 r k) := by
  refine (Cert.Lib.Rows.broadcastTo_a1_ab_apply _ broadcasts_S2048x1_S2048x1024 r q).trans ?_
  refine (Cert.Lib.Gram.shapeCast_a_a1_apply _ shapeCasts_S2048_S2048x1 r 0).trans ?_
  exact Cert.Lib.Rows.rowSum_f32_apply v reduces_S2048x256_S2048 (.inl rfl) rfl r

/-- The lane sums of a 1024 × 256 block, as a row broadcast over 2048 rows: entry `(r, q)` is the sum of row `q`. -/
theorem colSums_apply (v : FVec Ideal S1024x256 .f32) (r : Fin 2048) (q : Fin 1024) :
    broadcastTo S2048x1024 (shapeCast S1x1024 (multiReduction .add [1] S1024 v 0x00000000#32 reduces_S1024x256_S1024 (.inl rfl) rfl)
      shapeCasts_S1024_S1x1024) broadcasts_S1x1024_S2048x1024 (ix2 r q) = ∑ k : Fin 256, v (ix2 q k) := by
  refine (broadcastTo_1b_ab_apply _ broadcasts_S1x1024_S2048x1024 r q).trans ?_
  refine (shapeCast_a_1a_apply _ shapeCasts_S1024_S1x1024 0 q).trans ?_
  exact Cert.Lib.Rows.rowSum_f32_apply v reduces_S1024x256_S1024 (.inl rfl) rfl q

/-- The kernel's matrix product pairs output row `j 0` with the first operand's row … -/
theorem lhs_row (j : S2048x1024.Idx) (c : dot_S2048x256_S1024x256_S2048x1024_1_1_0_0_n_n.contr.Idx) :
    (dot_S2048x256_S1024x256_S2048x1024_1_1_0_0_n_n.lhsIdx j c 0).val = (j 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl
/-- … at the contracted column, … -/
theorem lhs_col (j : S2048x1024.Idx) (c : dot_S2048x256_S1024x256_S2048x1024_1_1_0_0_n_n.contr.Idx) :
    (dot_S2048x256_S1024x256_S2048x1024_1_1_0_0_n_n.lhsIdx j c 1).val = (c ⟨0, by decide⟩).val :=
  dot_S2048x256_S1024x256_S2048x1024_1_1_0_0_n_n.lhsIdx_val_of_single rfl j c
/-- … and output column `j 1` with the second operand's ROW `j 1` … -/
theorem rhs_row (j : S2048x1024.Idx) (c : dot_S2048x256_S1024x256_S2048x1024_1_1_0_0_n_n.contr.Idx) :
    (dot_S2048x256_S1024x256_S2048x1024_1_1_0_0_n_n.rhsIdx j c 0).val = (j 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl
/-- … at the same contracted column. -/
theorem rhs_col (j : S2048x1024.Idx) (c : dot_S2048x256_S1024x256_S2048x1024_1_1_0_0_n_n.contr.Idx) :
    (dot_S2048x256_S1024x256_S2048x1024_1_1_0_0_n_n.rhsIdx j c 1).val = (c ⟨0, by decide⟩).val :=
  dot_S2048x256_S1024x256_S2048x1024_1_1_0_0_n_n.rhsIdx_val_of_single rfl j c

/-- The matrix product of the two blocks, each contracted over its 256 columns, accumulated into zero: entry `(r, q)`
    is the inner product of row `r` of the first with row `q` of the second. -/
theorem products_apply (v0 : FVec Ideal S2048x256 .f32) (v4 : FVec Ideal S1024x256 .f32) (r : Fin 2048) (q : Fin 1024) :
    matmul dot_S2048x256_S1024x256_S2048x1024_1_1_0_0_n_n (some .fp32) v0 v4 (constant S2048x1024 .f32 0x00000000#32) (ix2 r q)
      = ∑ k : Fin 256, v0 (ix2 r k) * v4 (ix2 q k) := by
  refine Cert.Lib.Gram.matmul_zero_single_apply dot_S2048x256_S1024x256_S2048x1024_1_1_0_0_n_n 256 rfl rfl (some .fp32)
    v0 v4 (ix2 r q) (fun k => ix2 r k) (fun k => ix2 q k) (fun k => ?_) (fun k => ?_)
  · have hk := contrEquiv1_symm_val dot_S2048x256_S1024x256_S2048x1024_1_1_0_0_n_n 256 rfl rfl k
    exact funext fun a => Fin.ext (by
      match a with
      | ⟨0, _⟩ => exact lhs_row _ _
      | ⟨1, _⟩ => exact (lhs_col _ _).trans hk)
  · have hk := contrEquiv1_symm_val dot_S2048x256_S1024x256_S2048x1024_1_1_0_0_n_n 256 rfl rfl k
    exact funext fun a => Fin.ext (by
      match a with
      | ⟨0, _⟩ => exact rhs_row _ _
      | ⟨1, _⟩ => exact (rhs_col _ _).trans hk)

/-- The stored block at `(r, q)`: the weight of the two rows' squared norms and inner product. -/
theorem payload_apply (v0 : Vec Ideal S2048x256 .f32) (v4 : Vec Ideal S1024x256 .f32) (r : Fin 2048) (q : Fin 1024) :
    k0_pay1 (F := Ideal) v0 v4 (ix2 r q)
      = Cert.Rbf.weight (∑ k : Fin 256, v0 (ix2 r k) * v0 (ix2 r k)) (∑ k : Fin 256, v4 (ix2 q k) * v4 (ix2 q k))
          (∑ k : Fin 256, v0 (ix2 r k) * v4 (ix2 q k)) := by
  have hA := rowSums_apply (mulf v0 v0) r q
  have hB := colSums_apply (mulf v4 v4) r q
  have hC := products_apply v0 v4 r q
  unfold k0_pay1 Cert.Rbf.weight
  show Ideal.exp (Ideal.sqrt (max (_ + _ - Ideal.ofBits .f32 0x40000000#32 * _) (Ideal.ofBits .f32 0x00000000#32))
    * Ideal.ofBits .f32 0xBF000000#32) = _
  rw [hA, hB, hC]
  rfl

end Cert.Rbf.Kernel

end
-- ==== Proof.RbfBlocks.lean ====
/-
  From the kernel's blocks to its result array.

  The grid has 4 × 8 points. At point `(g, h)` the body is given rows `2048 g … 2048 g + 2047` of `x` and ALL of `p`,
  takes from `p` the rows `1024 h … 1024 h + 1023` itself, and its stored block is written back as block `(g, h)` of
  the result: entry `(r, q)` of the block is entry `(2048 g + r, 1024 h + q)` of the array. So each written-back block
  is the matching block of the weight table of `x` and `p`, and since the 32 blocks cover the array, the array is that table.
-/
import proofs.«173551_j16690242912928_2_alg».proof.Proof.Gen.KernelIdeal.Value
import proofs.«173551_j16690242912928_2_alg».proof.Proof.RbfPayload
import Idealize.ShloMosaic.Lib.Pipeline.Value
import Idealize.ShloMosaic.Lib.Tactic

noncomputable section

namespace Cert.Rbf.Kernel

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

theorem zero_offsets : (![0, 0] : Fin 2 → Nat) = fun _ => 0 := funext fun a => by fin_cases a <;> rfl

section AnyValues

variable {F : FTy → Type} [FloatOps F]

/-- What the body leaves in the output's staging buffer: its one store covers the buffer, and what it stores is the
    payload of the whole first input buffer and of the rows of the second that its offset names. -/
theorem stored_block (c : Dev nD) (i : grid0.Coords) (a2 : Memref sig .tc .vmem S2048x256 .f32) (h2 : a2.IsWhole)
    (a3 : Memref sig .tc .vmem S8192x256 .f32) (h3 : a3.IsWhole) (a4 : Memref sig .tc .vmem S2048x1024 .f32) (h4 : a4.IsWhole)
    (x0 : Vec F S2048x256 .f32) (x1 : Vec F S8192x256 .f32) :
    out0_A_2 c i a2 h2 a3 h3 a4 h4 x0 x1
      = k0_pay1 x0 (View.ld x1 (Rect.unit (s := S8192x256) (k0_off1 i) S1024x256.size (k0_off1_inb i))) := by
  unfold out0_A_2
  rw [View.read_writes_eq_canon _ _ _ (cover0_A_2 c i a2 h2 a3 h3 a4 h4 x0 x1)]
  unfold kernelRun0_A
  dsimp only
  rw [View.canon_unit_zero zero_offsets]
  simp only [View.readAt_eq_ld, h2.read_unread, h3.read_unread, View.ld_unit_zero (S := S2048x256) zero_offsets]

end AnyValues

/-- The printed index maps and the body's row offset, decided once over the 32 grid points: the `x` window moves with
    the output's row blocks, the `p` window stays at the whole array, and the body's offset into `p` is 1024 times the
    output's column-block index. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ k0_off1 (grid0.coords t) (0 : Fin 2) = win0_2.index t (1 : Fin 2) * 1024
    ∧ k0_off1 (grid0.coords t) (1 : Fin 2) = 0
    ∧ win0_2.index t (0 : Fin 2) ≤ 3 ∧ win0_2.index t (1 : Fin 2) ≤ 7 :=
  (by decide +kernel : ∀ t : Fin grid0.N, _)

/-- Every block of the 4 × 8 block grid is some point's. -/
theorem index_onto : ∀ (g : Fin 4) (h : Fin 8), ∃ t : Fin cfg0.N, win0_2.index t = ![g.val, h.val] :=
  (by decide +kernel : ∀ (g : Fin 4) (h : Fin 8), ∃ t : Fin grid0.N, win0_2.index t = ![g.val, h.val])

variable (m : (ℓ : Loc nD τ sig) → Buf (Elt Ideal) ℓ) (ρ : Dev nD → PrngReg)

/-- The `x` block at point `t`, row `r`: row `2048 g + r` of `x`. -/
theorem x_block_apply (c : Dev nD) (t : Fin cfg0.N) (r : Fin 2048) (k : Fin 256) (b : Fin 8192)
    (hb : b.val = win0_2.index t (0 : Fin 2) * 2048 + r.val) :
    iblk m c 0 t (ix2 r k) = m ((c : Thread nD τ).loc main_arg0) (ix2 b k) := by
  obtain ⟨e0, e1, e2, e3, e4, e5, e6, e7⟩ := index_maps t
  unfold iblk
  rw [View.read_apply]
  show V m c main_arg0 _ = m (c.tc.loc main_arg0) _
  unfold V
  congr 1
  funext a
  apply Fin.ext
  match a with
  | ⟨0, _⟩ => show win0_0.index t (0 : Fin 2) * 2048 + 1 * r.val = b.val; omega
  | ⟨1, _⟩ => show win0_0.index t (1 : Fin 2) * 256 + 1 * k.val = k.val; omega

/-- The rows of `p` the body takes at point `t`, row `q` of them: row `1024 h + q` of `p`. -/
theorem p_rows_apply (c : Dev nD) (t : Fin cfg0.N) (q : Fin 1024) (k : Fin 256) (b : Fin 8192)
    (hb : b.val = win0_2.index t (1 : Fin 2) * 1024 + q.val) :
    View.ld (iblk m c 1 t) (Rect.unit (s := S8192x256) (k0_off1 (grid0.coords t)) S1024x256.size (k0_off1_inb (grid0.coords t))) (ix2 q k)
      = m ((c : Thread nD τ).loc main_arg1) (ix2 b k) := by
  obtain ⟨e0, e1, e2, e3, e4, e5, e6, e7⟩ := index_maps t
  show iblk m c 1 t _ = _
  unfold iblk
  rw [View.read_apply]
  show V m c main_arg1 _ = m (c.tc.loc main_arg1) _
  unfold V
  congr 1
  funext a
  apply Fin.ext
  match a with
  | ⟨0, _⟩ => show win0_1.index t (0 : Fin 2) * 8192 + 1 * (k0_off1 (grid0.coords t) (0 : Fin 2) + 1 * q.val) = b.val; omega
  | ⟨1, _⟩ => show win0_1.index t (1 : Fin 2) * 256 + 1 * (k0_off1 (grid0.coords t) (1 : Fin 2) + 1 * k.val) = k.val; omega

/-- A stored block's entry `(r, q)`, over ANY two buffers whose rows `r` and `q` are rows `b` and `d` of two arrays:
    the weight of those two rows. -/
theorem block_entry (X : Vec Ideal S2048x256 .f32) (Q : Vec Ideal S1024x256 .f32) (x p : Cert.Rbf.Rows)
    (r : Fin 2048) (q : Fin 1024) (b d : Fin 8192)
    (hX : ∀ k : Fin 256, X (ix2 r k) = x (ix2 b k)) (hQ : ∀ k : Fin 256, Q (ix2 q k) = p (ix2 d k)) :
    k0_pay1 (F := Ideal) X Q (ix2 r q) = Cert.Rbf.weight (Cert.Rbf.sqNorm x b) (Cert.Rbf.sqNorm p d) (Cert.Rbf.inner x p b d) := by
  rw [payload_apply]
  unfold Cert.Rbf.sqNorm Cert.Rbf.inner
  simp only [hX, hQ]

/-- WHAT POINT `t` WRITES BACK is block `t` of the weight table of the argument arrays. -/
theorem flushed_eq (c : Dev nD) (t : Fin cfg0.N) :
    (dats m 0 c).flushed 2 t = ((cfg0.win 2).blk t).view.read (Elt Ideal)
      (Cert.Rbf.rbf (m ((c : Thread nD τ).loc main_arg0)) (m ((c : Thread nD τ).loc main_arg1))) := by
  rw [Cert.KernelIdeal.Value.flushed2_A, stored_block]
  obtain ⟨e0, e1, e2, e3, e4, e5, e6, e7⟩ := index_maps t
  funext j
  obtain ⟨r, q, rfl⟩ : ∃ (r : Fin 2048) (q : Fin 1024), j = ix2 r q := ⟨j 0, j 1, eq_ix2 j⟩
  have hb : win0_2.index t (0 : Fin 2) * 2048 + r.val < 8192 := by have := r.isLt; omega
  have hd : win0_2.index t (1 : Fin 2) * 1024 + q.val < 8192 := by have := q.isLt; omega
  show k0_pay1 (F := Ideal) (iblk m c 0 t) (View.ld (iblk m c 1 t) (Rect.unit (s := S8192x256) (k0_off1 (grid0.coords t))
      S1024x256.size (k0_off1_inb (grid0.coords t)))) (ix2 r q)
    = Cert.Rbf.rbf (m ((c : Thread nD τ).loc main_arg0)) (m ((c : Thread nD τ).loc main_arg1)) (((cfg0.win 2).blk t).view.emb (ix2 r q))
  refine (block_entry (iblk m c 0 t) _ (m ((c : Thread nD τ).loc main_arg0)) (m ((c : Thread nD τ).loc main_arg1)) r q
    ⟨_, hb⟩ ⟨_, hd⟩ (fun k => x_block_apply m c t r k _ rfl) (fun k => p_rows_apply m c t q k _ rfl)).trans ?_
  have hi : ((cfg0.win 2).blk t).view.emb (ix2 r q)
      = ix2 (⟨win0_2.index t (0 : Fin 2) * 2048 + r.val, hb⟩ : Fin 8192) (⟨win0_2.index t (1 : Fin 2) * 1024 + q.val, hd⟩ : Fin 8192) := by
    funext a
    apply Fin.ext
    match a with
    | ⟨0, _⟩ => show win0_2.index t (0 : Fin 2) * 2048 + 1 * r.val = win0_2.index t (0 : Fin 2) * 2048 + r.val; omega
    | ⟨1, _⟩ => show win0_2.index t (1 : Fin 2) * 1024 + 1 * q.val = win0_2.index t (1 : Fin 2) * 1024 + q.val; omega
  rw [hi]
  rfl

/-- An entry of the array is in point `t`'s block iff each coordinate is in the block's range on its axis. -/
theorem mem_block (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The 32 blocks cover the array: entry `(b, d)` lies in the block of the point whose block index is
    `(b / 2048, d / 1024)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- THE RESULT ARRAY after the run is the weight table of the argument arrays. -/
theorem final (c : Dev nD) : (dats m 0 c).arrAt 2 cfg0.N
    = Cert.Rbf.rbf (m ((c : Thread nD τ).loc main_arg0)) (m ((c : Thread nD τ).loc main_arg1)) :=
  (dats m 0 c).arrAt_eq_of_cover 2 _ (fun t _ => flushed_eq m c t) covered

/-- The kernel's run, read: the result array at the weight table of the arguments, the arguments unchanged. -/
theorem run : θ_run defs (onTc (τ := τ) (main (F := Ideal))) ⟨m, fun _ => 0, ρ⟩ fun r => ∀ c : Dev nD,
      r.2.mem ((c : Thread nD τ).loc main_v0)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Kernel

end
-- ==== Proof.RbfRef.lean ====
/-
  The reference's result, read at an entry `(b, q)`: its two sums of squares run over row `b` of `x` and row `q` of
  `p` (the keepdims column and the `[None, :]` row are each read back at the row they came from), its matrix product
  pairs the same two rows, and what it does with the three numbers is the reference's arrangement of the weight.
-/
import proofs.«173551_j16690242912928_2_alg».proof.Proof.Gen.ReferenceIdeal.Read
import proofs.«173551_j16690242912928_2_alg».proof.Proof.RbfSpec

noncomputable section

namespace Cert.Rbf.Ref

open Cert.ReferenceIdeal Cert.ReferenceIdeal.Read Idealize.ShloMosaic Idealize.ShloMosaic.ValueIdx

/-- The reference's last stage is the weight table of its two arguments. -/
theorem reference_eq (x0 x1 : (⟨S8192x256, .f32⟩ : BufTy).Contents (Elt Ideal)) :
    val_main_v19 (F := Ideal) x0 x1 = Cert.Rbf.rbf x0 x1 := by
  funext i
  obtain ⟨b, q, rfl⟩ : ∃ (b : Fin 8192) (q : Fin 8192), i = ix2 b q := ⟨i 0, i 1, eq_ix2 i⟩
  have e1 : ∀ k, idx_main_v1 (idx_main_v2 (idx_main_v7 (ix2 b q))) k = ix2 b k := fun k =>
    funext fun a => Fin.ext (by match a with | ⟨0, _⟩ => rfl | ⟨1, _⟩ => rfl)
  have e4 : ∀ k, idx_main_v4 (idx_main_v6 (idx_main_v8 (ix2 b q))) k = ix2 q k := fun k =>
    funext fun a => Fin.ext (by match a with | ⟨0, _⟩ => rfl | ⟨1, _⟩ => rfl)
  have el : ∀ k, lidx_main_v5 (ix2 b q) k = ix2 b k := fun k =>
    funext fun a => Fin.ext (by match a with | ⟨0, _⟩ => rfl | ⟨1, _⟩ => rfl)
  have er : ∀ k, ridx_main_v5 (ix2 b q) k = ix2 q k := fun k =>
    funext fun a => Fin.ext (by match a with | ⟨0, _⟩ => rfl | ⟨1, _⟩ => rfl)
  rw [val_main_v19_apply, val_main_v18_apply, val_main_v17_apply, val_main_cst_3_apply, val_main_v16_apply,
    val_main_v15_apply, val_main_v14_apply, val_main_v13_apply, val_main_cst_2_apply, val_main_v12_apply,
    val_main_v11_apply, val_main_v10_apply, val_main_cst_1_apply, val_main_v5_apply, val_main_v9_apply,
    val_main_v8_apply, val_main_v6_apply, val_main_v4_apply, val_main_cst_0_apply, val_main_v7_apply,
    val_main_v2_apply, val_main_v1_apply, val_main_cst_apply]
  simp only [e1, e4, el, er, val_main_v0_apply, val_main_v3_apply, Ideal.hostUnary_exp_def, Ideal.hostUnary_sqrt_def,
    Ideal.hostDivf_def, Ideal.hostNegf_def, Ideal.negf_def, Ideal.maximumf_def, Ideal.subf_def, Ideal.addf_def,
    Ideal.mulf_def, Ideal.ofBits_def]
  exact Cert.Rbf.reference_form _ _ _

end Cert.Rbf.Ref

end
-- ==== Proof.lean ====
/-
  A table of Gaussian-type weights between the rows of two arrays: for `x` and `p`, each 8192 rows of 256 numbers, entry
  `(b, q)` of the result is

      exp ( -1/2 · sqrt ( max ( |x_b|² + |p_q|² - 2 · ⟨x_b, p_q⟩ , 0 ) ) ).

  The kernel fills the 8192 × 8192 result in 4 × 8 blocks of 2048 × 1024; for block `(g, h)` it reads rows
  `2048 g …` of `x` and rows `1024 h …` of `p`, takes the two families of squared norms by lane sums, the inner products
  by one matrix product over the 256 columns, and multiplies the root by `-1/2`. The reference takes the same three
  ingredients for the whole arrays at once, each sum of squares started from `0`, and negates the root and divides it
  by `2`. On the extended reals the two are the same function of `x` and `p`, entry by entry:

    * each block the kernel writes back is the matching block of that function (Proof/RbfPayload.lean: a block's entry;
      Proof/RbfBlocks.lean: which rows a block reads, and that the 32 blocks cover the array);
    * the reference's last stage is that function (Proof/RbfRef.lean), since `0 + s = s` and halving a negation is
      multiplying by minus one half, at the infinities too (Proof/RbfSpec.lean) — so the precondition is never opened.

  The three frames are the generated ones (the reference's is its generated run with the result dropped); the ideal pass
  rewrote nothing, so `preserves` is `True`.
-/
import proofs.«173551_j16690242912928_2_alg».proof.Defs
import proofs.«173551_j16690242912928_2_alg».proof.Proof.Gen.Kernel
import proofs.«173551_j16690242912928_2_alg».proof.Proof.Gen.Kernel.Skeleton
import proofs.«173551_j16690242912928_2_alg».proof.Proof.Gen.Kernel.Launch
import proofs.«173551_j16690242912928_2_alg».proof.Proof.Gen.Kernel.Points
import proofs.«173551_j16690242912928_2_alg».proof.Proof.Gen.Kernel.Frame
import proofs.«173551_j16690242912928_2_alg».proof.Proof.Gen.KernelIdeal
import proofs.«173551_j16690242912928_2_alg».proof.Proof.Gen.KernelIdeal.Skeleton
import proofs.«173551_j16690242912928_2_alg».proof.Proof.Gen.KernelIdeal.Launch
import proofs.«173551_j16690242912928_2_alg».proof.Proof.Gen.KernelIdeal.Points
import proofs.«173551_j16690242912928_2_alg».proof.Proof.Gen.KernelIdeal.Frame
import proofs.«173551_j16690242912928_2_alg».proof.Proof.Gen.ReferenceIdeal
import proofs.«173551_j16690242912928_2_alg».proof.Proof.Gen.KernelIdeal.Value
import proofs.«173551_j16690242912928_2_alg».proof.Proof.Gen.ReferenceIdeal.Run
import proofs.«173551_j16690242912928_2_alg».proof.Proof.Gen.ReferenceIdeal.Read
import proofs.«173551_j16690242912928_2_alg».proof.Proof.Gen.Pre_finite_inputs
import proofs.«173551_j16690242912928_2_alg».proof.Proof.RbfBlocks
import proofs.«173551_j16690242912928_2_alg».proof.Proof.RbfRef
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the weight table of the arguments: the kernel's of its own arguments, the
    reference's of arguments that agree with them. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.Rbf.Ref.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
